-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 56
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x128, .f32⟩
  | .hbm, ⟨39, _⟩ => ⟨S50000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x64, .f32⟩
  | .hbm, ⟨55, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .bf16⟩
  | .local _ .vmem, ⟨16, _⟩ => ⟨S5000x128, .bf16⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel's run with its result array named.

  @main is four segments: the host operations before the first call, the first call, the host operations between the
  calls, the second call.  The launch theorem for such a chain, applied to the generated segments and their proof data,
  ends with every unscoped buffer of the core at the last boundary's contents.  Reading that fact at the result buffer as
  well as at the eight arguments gives: every weakly fair execution terminates without a fault, the result buffer holds
  the last boundary's contents at it, and the arguments are as launched.
-/
import proofs.«157254_j24026047053899_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the arguments as launched. -/
theorem run_named : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.SageLayer.lean ====
/-
  One layer of a mean-aggregating graph convolution, read entry by entry on the extended reals.

  A node's new feature q is  Σ_k (s_k · c) · wl_k  +  Σ_k x_k · wr_k  +  b :  s is the row of neighbour sums of the node,
  c the reciprocal of its in-degree (so s_k · c is the neighbours' mean), x the node's own row, wl and wr column q of the
  two weight matrices, b entry q of the bias.  The first layer clamps the result below at 0.  The order of the operations
  is kept exactly as written (scale each summand, then multiply by the weight, then add): nothing here uses a
  distributive law, so the formulas hold at the infinities as well.

  `lin` and `linRelu` are the layer on whole arrays: entry (p, q) depends on row p of the sums, of the reciprocals and of
  the node features, on column q of the weights, and on entry q of the bias, and on nothing else.
-/
import Idealize.ShloMosaic.PureOps.Ideal
import Idealize.ShloMosaic.Lib.ValueIdx

noncomputable section

namespace Cert.Sage

open Idealize.ShloMosaic Idealize.ShloMosaic.ValueIdx

/-- One entry of the layer before the clamp: neighbours' mean times the left weights, own row times the right
    weights, plus the bias. -/
def entry {K : ℕ} (s : Fin K → EReal) (c : EReal) (x : Fin K → EReal) (wl wr : Fin K → EReal) (b : EReal) : EReal :=
  ((∑ k : Fin K, (s k * c) * wl k) + ∑ k : Fin K, x k * wr k) + b

variable {n K d : ℕ}

/-- The layer without the clamp on whole arrays: sums [n, K], reciprocal in-degrees [n, 1], node features [n, K],
    weights [K, d] twice, bias [d]. -/
def lin (S : (⟨2, ![n, K]⟩ : Shape).Idx → EReal) (c : (⟨2, ![n, 1]⟩ : Shape).Idx → EReal)
    (X : (⟨2, ![n, K]⟩ : Shape).Idx → EReal) (Wl Wr : (⟨2, ![K, d]⟩ : Shape).Idx → EReal)
    (b : (⟨1, ![d]⟩ : Shape).Idx → EReal) : (⟨2, ![n, d]⟩ : Shape).Idx → EReal :=
  fun i => entry (fun k => S (ix2 (i 0) k)) (c (ix2 (i 0) (0 : Fin 1))) (fun k => X (ix2 (i 0) k))
    (fun k => Wl (ix2 k (i 1))) (fun k => Wr (ix2 k (i 1))) (b (ix1 (i 1)))

/-- The layer with the clamp at 0. -/
def linRelu (S : (⟨2, ![n, K]⟩ : Shape).Idx → EReal) (c : (⟨2, ![n, 1]⟩ : Shape).Idx → EReal)
    (X : (⟨2, ![n, K]⟩ : Shape).Idx → EReal) (Wl Wr : (⟨2, ![K, d]⟩ : Shape).Idx → EReal)
    (b : (⟨1, ![d]⟩ : Shape).Idx → EReal) : (⟨2, ![n, d]⟩ : Shape).Idx → EReal :=
  fun i => max (lin S c X Wl Wr b i) 0

theorem lin_apply (S : (⟨2, ![n, K]⟩ : Shape).Idx → EReal) (c : (⟨2, ![n, 1]⟩ : Shape).Idx → EReal)
    (X : (⟨2, ![n, K]⟩ : Shape).Idx → EReal) (Wl Wr : (⟨2, ![K, d]⟩ : Shape).Idx → EReal)
    (b : (⟨1, ![d]⟩ : Shape).Idx → EReal) (p : Fin n) (q : Fin d) :
    lin S c X Wl Wr b (ix2 p q) = entry (fun k => S (ix2 p k)) (c (ix2 p (0 : Fin 1))) (fun k => X (ix2 p k))
      (fun k => Wl (ix2 k q)) (fun k => Wr (ix2 k q)) (b (ix1 q)) := rfl

theorem linRelu_apply (S : (⟨2, ![n, K]⟩ : Shape).Idx → EReal) (c : (⟨2, ![n, 1]⟩ : Shape).Idx → EReal)
    (X : (⟨2, ![n, K]⟩ : Shape).Idx → EReal) (Wl Wr : (⟨2, ![K, d]⟩ : Shape).Idx → EReal)
    (b : (⟨1, ![d]⟩ : Shape).Idx → EReal) (p : Fin n) (q : Fin d) :
    linRelu S c X Wl Wr b (ix2 p q) = max (entry (fun k => S (ix2 p k)) (c (ix2 p (0 : Fin 1))) (fun k => X (ix2 p k))
      (fun k => Wl (ix2 k q)) (fun k => Wr (ix2 k q)) (b (ix1 q))) 0 := rfl

/-- The one row of a [1, d] matrix as a vector: how a kernel is handed the bias. -/
def rowOf (B : (⟨2, ![1, d]⟩ : Shape).Idx → EReal) : (⟨1, ![d]⟩ : Shape).Idx → EReal :=
  fun j => B (ix2 (0 : Fin 1) (j 0))

theorem rowOf_apply (B : (⟨2, ![1, d]⟩ : Shape).Idx → EReal) (q : Fin d) : rowOf B (ix1 q) = B (ix2 (0 : Fin 1) q) := rfl

/-- An entry depends on its six ingredients only. -/
theorem entry_congr {s s' x x' wl wl' wr wr' : Fin K → EReal} {c c' b b' : EReal}
    (hs : ∀ k, s k = s' k) (hc : c = c') (hx : ∀ k, x k = x' k) (hwl : ∀ k, wl k = wl' k) (hwr : ∀ k, wr k = wr' k)
    (hb : b = b') : entry s c x wl wr b = entry s' c' x' wl' wr' b' := by
  rw [funext hs, hc, funext hx, funext hwl, funext hwr, hb]

end Cert.Sage

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.BodyEntry.lean ====
/-
  What each kernel body stores, read at an entry of its block.

  Both bodies hold a block of m = 5000 consecutive rows: the neighbour sums (m × 128), the reciprocal in-degrees (m × 1,
  one per row), the nodes' own rows (m × 128), the two whole weight matrices (128 × d) and the bias as a one-row matrix
  (1 × d).  Each scales row p of the sums by the row's reciprocal, multiplies by the left weights, adds the own row times
  the right weights, adds the bias; the first body clamps at 0.  The changes of float format in between are the identity
  on the extended reals.  So entry (p, q) of what a body stores is `Sage.entry` of row p of its blocks and column q of
  the weights — the first clamped at 0.
-/
import proofs.«157254_j24026047053899_2_alg».proof.Proof.Gen.KernelIdeal.Skeleton
import proofs.«157254_j24026047053899_2_alg».proof.Proof.SageLayer
import proofs.«157254_j24026047053899_2_alg».proof.Proof.LibPlainMatmul
import proofs.«157254_j24026047053899_2_alg».proof.Proof.LibKeepdims
import Idealize.ShloMosaic.Lib.ValueLayout
import Idealize.ShloMosaic.Lib.Pipeline.Value
import Idealize.ShloMosaic.PureOps.Ideal.Laws

noncomputable section

namespace Cert.KernelIdeal.BodyEntry

open Cert.KernelIdeal Cert.KernelIdeal.Gen Idealize.ShloMosaic Idealize.ShloMosaic.ValueIdx Cert.Sage

section General
variable {m K d : ℕ}
  (wf : DotDims.WF (⟨2, ![m, K]⟩ : Shape) (⟨2, ![K, d]⟩ : Shape) (⟨2, ![m, d]⟩ : Shape) [1] [0] [0] [1] [] [])
  (prec : Option ContractPrecision) (ht : (FTy.bf16).bits < (FTy.f32).bits)

/-- Rows scaled by their own reciprocal, then multiplied by a weight matrix: entry (p, q) is Σ_k (s(p,k) · c(p)) · w(k,q). -/
theorem scaledProduct (s : FVec Ideal (⟨2, ![m, K]⟩ : Shape) .f32) (c : FVec Ideal (⟨2, ![m, 1]⟩ : Shape) .f32)
    (w : FVec Ideal (⟨2, ![K, d]⟩ : Shape) .f32)
    (h0 : (⟨2, ![m, K]⟩ : Shape).ShapeCasts ⟨2, ![m, K]⟩) (h1 : (⟨2, ![m, 1]⟩ : Shape).ShapeCasts ⟨2, ![m, 1]⟩)
    (hb : (⟨2, ![m, 1]⟩ : Shape).Broadcasts ⟨2, ![m, K]⟩) (p : Fin m) (q : Fin d) :
    FloatOps.matmul (Cert.PlainMatmul.plain wf) prec
        (truncf .bf16 (mulf (shapeCast (⟨2, ![m, K]⟩ : Shape) s h0) (broadcastTo (⟨2, ![m, K]⟩ : Shape) (shapeCast (⟨2, ![m, 1]⟩ : Shape) c h1) hb)) ht)
        (truncf .bf16 w ht) (constant (⟨2, ![m, d]⟩ : Shape) .f32 0x00000000#32) (ix2 p q)
      = ∑ k : Fin K, (s (ix2 p k) * c (ix2 p (0 : Fin 1))) * w (ix2 k q) := by
  refine (Cert.PlainMatmul.matmul_zero_apply wf prec _ _ p q).trans ?_
  refine Finset.sum_congr rfl fun k _ => ?_
  show (shapeCast (⟨2, ![m, K]⟩ : Shape) s h0 (ix2 p k) * broadcastTo (⟨2, ![m, K]⟩ : Shape) (shapeCast (⟨2, ![m, 1]⟩ : Shape) c h1) hb (ix2 p k)) * w (ix2 k q) = _
  rw [shapeCast_self, shapeCast_self, Cert.Keepdims.broadcastTo_a1_ab_apply]

/-- Rows times a weight matrix, both operands narrowed first: entry (p, q) is Σ_k x(p,k) · w(k,q). -/
theorem narrowedProduct (x : FVec Ideal (⟨2, ![m, K]⟩ : Shape) .f32) (w : FVec Ideal (⟨2, ![K, d]⟩ : Shape) .f32)
    (p : Fin m) (q : Fin d) :
    FloatOps.matmul (Cert.PlainMatmul.plain wf) prec (truncf .bf16 x ht) (truncf .bf16 w ht)
        (constant (⟨2, ![m, d]⟩ : Shape) .f32 0x00000000#32) (ix2 p q)
      = ∑ k : Fin K, x (ix2 p k) * w (ix2 k q) :=
  Cert.PlainMatmul.matmul_zero_apply wf prec _ _ p q

/-- The same with the rows already narrow (only re-viewed at their own shape). -/
theorem narrowProduct (x : FVec Ideal (⟨2, ![m, K]⟩ : Shape) .bf16) (w : FVec Ideal (⟨2, ![K, d]⟩ : Shape) .f32)
    (h0 : (⟨2, ![m, K]⟩ : Shape).ShapeCasts ⟨2, ![m, K]⟩) (p : Fin m) (q : Fin d) :
    FloatOps.matmul (Cert.PlainMatmul.plain wf) prec (shapeCast (⟨2, ![m, K]⟩ : Shape) x h0) (truncf .bf16 w ht)
        (constant (⟨2, ![m, d]⟩ : Shape) .f32 0x00000000#32) (ix2 p q)
      = ∑ k : Fin K, x (ix2 p k) * w (ix2 k q) := by
  rw [shapeCast_self]
  exact Cert.PlainMatmul.matmul_zero_apply wf prec _ _ p q

/-- A one-row bias laid down the rows reads, at (p, q), the row's entry q. -/
theorem biasRow (b : FVec Ideal (⟨2, ![1, d]⟩ : Shape) .f32) (h0 : (⟨2, ![1, d]⟩ : Shape).ShapeCasts ⟨2, ![1, d]⟩)
    (hb : (⟨2, ![1, d]⟩ : Shape).Broadcasts ⟨2, ![m, d]⟩) (p : Fin m) (q : Fin d) :
    broadcastTo (⟨2, ![m, d]⟩ : Shape) (shapeCast (⟨2, ![1, d]⟩ : Shape) b h0) hb (ix2 p q) = b (ix2 (0 : Fin 1) q) := by
  rw [shapeCast_self]
  exact broadcastTo_1b_ab_apply b hb p q

end General

/-- Entry (p, q) of what the first body stores: the layer's entry from row p of its blocks, clamped at 0. -/
theorem pay0_entry (x0 : FVec Ideal S5000x128 .f32) (x1 : FVec Ideal S5000x1 .f32) (x2 : FVec Ideal S5000x128 .f32)
    (x3 x4 : FVec Ideal S128x128 .f32) (x5 : FVec Ideal S1x128 .f32) (p : Fin 5000) (q : Fin 128) :
    k0_pay1 (F := Ideal) x0 x1 x2 x3 x4 x5 (ix2 p q)
      = max (entry (fun k : Fin 128 => x0 (ix2 p k)) (x1 (ix2 p (0 : Fin 1))) (fun k : Fin 128 => x2 (ix2 p k))
          (fun k : Fin 128 => x3 (ix2 k q)) (fun k : Fin 128 => x4 (ix2 k q)) (x5 (ix2 (0 : Fin 1) q))) 0 := by
  unfold k0_pay1 entry
  refine congrArg₂ max (congrArg₂ (· + ·) (congrArg₂ (· + ·) ?_ ?_) ?_) Ideal.ofBits_zero_f32
  · exact scaledProduct _ none _ x0 x1 x3 _ _ _ p q
  · exact narrowedProduct _ none _ x2 x4 p q
  · exact biasRow x5 _ _ p q

/-- Entry (p, q) of what the second body stores: the layer's entry from row p of its blocks. -/
theorem pay1_entry (x0 : FVec Ideal S5000x128 .f32) (x1 : FVec Ideal S5000x1 .f32) (x2 : FVec Ideal S5000x128 .bf16)
    (x3 x4 : FVec Ideal S128x64 .f32) (x5 : FVec Ideal S1x64 .f32) (p : Fin 5000) (q : Fin 64) :
    k1_pay1 (F := Ideal) x0 x1 x2 x3 x4 x5 (ix2 p q)
      = entry (fun k : Fin 128 => x0 (ix2 p k)) (x1 (ix2 p (0 : Fin 1))) (fun k : Fin 128 => x2 (ix2 p k))
          (fun k : Fin 128 => x3 (ix2 k q)) (fun k : Fin 128 => x4 (ix2 k q)) (x5 (ix2 (0 : Fin 1) q)) := by
  unfold k1_pay1 entry
  refine congrArg₂ (· + ·) (congrArg₂ (· + ·) ?_ ?_) ?_
  · exact scaledProduct _ none _ x0 x1 x3 _ _ _ p q
  · exact narrowProduct _ none _ x2 x4 _ p q
  · exact biasRow x5 _ _ p q

end Cert.KernelIdeal.BodyEntry

end
-- ==== Proof.Hidden.lean ====
/-
  The array the first call leaves: the clamped layer of the arrays it is entered with.

  The call walks the 50000 rows in ten blocks of 5000.  At point t every row-indexed operand (the neighbour sums, the
  reciprocal in-degrees, the node features, the result) is at block t of its array and the weights and the bias are whole,
  so row p of the block is row 5000·t + p of the arrays; by the body's entry formula, what point t writes back is block t
  of `Sage.linRelu` of the whole arrays.  The ten blocks cover every row (row r is in block r / 5000), so the result
  array ends as that function.
-/
import proofs.«157254_j24026047053899_2_alg».proof.Proof.Gen.KernelIdeal.Frame
import proofs.«157254_j24026047053899_2_alg».proof.Proof.SageLayer
import proofs.«157254_j24026047053899_2_alg».proof.Proof.BodyEntry
import Idealize.ShloMosaic.Lib.Pipeline.Value

set_option maxRecDepth 16384

noncomputable section

namespace Cert.KernelIdeal.Hidden

open Cert.KernelIdeal Cert.KernelIdeal.Gen Idealize.ShloMosaic Idealize.ShloMosaic.TcCoe Idealize.SL.Sem
open Idealize.ShloMosaic.ValueIdx Cert.Sage
open Idealize.ShloMosaic.Pipeline (Dat)

-- The contents of the core's buffers when the call is entered: everything below is stated for any such contents.
variable (V : (c : Dev nD) → (b : Ref sig .tc) → Buf (Elt Ideal) ((c : Thread nD τ).loc b))

theorem zeros : (![0, 0] : Fin 2 → Nat) = fun _ => 0 := funext fun a => by fin_cases a <;> rfl

/-- The first layer of the entry contents: sums, reciprocals, features, the two weight matrices, the bias row. -/
def hidden (c : Dev nD) : S50000x128.Idx → EReal :=
  linRelu (n := 50000) (K := 128) (d := 128) (V c main_v22) (V c main_v12) (V c main_arg0) (V c main_arg2) (V c main_arg3)
    (rowOf (d := 128) (V c main_v23))

/-- The printed index maps over the ten points: the row-indexed windows move together down the rows, the weights and
    the bias stay at the origin. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every block of rows is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- The body's entry formula at an index given by its coordinates. -/
theorem pay_at (x0 : FVec Ideal S5000x128 .f32) (x1 : FVec Ideal S5000x1 .f32) (x2 : FVec Ideal S5000x128 .f32)
    (x3 x4 : FVec Ideal S128x128 .f32) (x5 : FVec Ideal S1x128 .f32) (y : S5000x128.Idx) (p : Fin 5000) (q : Fin 128)
    (hy : y = ix2 p q) :
    k0_pay1 (F := Ideal) x0 x1 x2 x3 x4 x5 y
      = max (entry (fun k : Fin 128 => x0 (ix2 p k)) (x1 (ix2 p (0 : Fin 1))) (fun k : Fin 128 => x2 (ix2 p k))
          (fun k : Fin 128 => x3 (ix2 k q)) (fun k : Fin 128 => x4 (ix2 k q)) (x5 (ix2 (0 : Fin 1) q))) 0 := by
  subst hy; exact BodyEntry.pay0_entry x0 x1 x2 x3 x4 x5 p q

/-- What point t writes back is block t of the first layer. -/
theorem flushed_eq (c : Dev nD) (t : Fin cfg0.N) :
    (dat0 (F := Ideal) V c).flushed 6 t = ((cfg0.win 6).blk t).view.read (Elt Ideal) (hidden V c) := by
  show (cfg0.win 6).cut (grid0.coords t) ((dat0 (F := Ideal) V c).after 6 t) = _
  rw [after0_6]
  unfold out0_6
  rw [View.canon_unit_zero zeros]
  simp only [View.ld_unit_zero (S := S5000x128) zeros, View.ld_unit_zero (S := S5000x1) zeros,
    View.ld_unit_zero (S := S128x128) zeros, View.ld_unit_zero (S := S1x128) zeros]
  obtain ⟨f00, f01, f10, f11, f20, f21, f30, f31, f40, f41, f50, f51, f60, f61⟩ := idx_facts t
  funext j
  have hj0 : (j 0).val < 5000 := (j 0).isLt
  have hj1 : (j 1).val < 128 := (j 1).isLt
  have hP : win0_6.index t (0 : Fin 2) * 5000 + (j 0).val < 50000 := by omega
  refine (pay_at (iblk0 V c 0 t) (iblk0 V c 1 t) (iblk0 V c 2 t) (iblk0 V c 3 t) (iblk0 V c 4 t) (iblk0 V c 5 t)
    ((cfg0.win 6).xinj (grid0.coords t) j) ⟨(j 0).val, hj0⟩ ⟨(j 1).val, hj1⟩
    (funext fun a => Fin.ext (by match a with | ⟨0, _⟩ => rfl | ⟨1, _⟩ => rfl))).trans ?_
  have hE : ((cfg0.win 6).blk t).view.emb j
      = ix2 (⟨win0_6.index t (0 : Fin 2) * 5000 + (j 0).val, hP⟩ : Fin 50000) (⟨(j 1).val, hj1⟩ : Fin 128) :=
    funext fun a => Fin.ext (by
      match a with
      | ⟨0, _⟩ => show win0_6.index t (0 : Fin 2) * 5000 + 1 * (j 0).val = win0_6.index t (0 : Fin 2) * 5000 + (j 0).val; omega
      | ⟨1, _⟩ => show win0_6.index t (1 : Fin 2) * 128 + 1 * (j 1).val = (j 1).val; omega)
  show _ = hidden V c (((cfg0.win 6).blk t).view.emb j)
  rw [hE]
  unfold hidden
  rw [linRelu_apply, rowOf_apply]
  refine congrArg (fun z => max z 0) (entry_congr (fun k => ?_) ?_ (fun k => ?_) (fun k => ?_) (fun k => ?_) ?_)
  · show V c main_v22 (((cfg0.win 0).blk t).view.emb (ix2 (⟨(j 0).val, hj0⟩ : Fin 5000) k)) = _
    refine congrArg (V c main_v22) (funext fun a => Fin.ext ?_)
    match a with
    | ⟨0, _⟩ => show win0_0.index t (0 : Fin 2) * 5000 + 1 * (j 0).val = win0_6.index t (0 : Fin 2) * 5000 + (j 0).val; omega
    | ⟨1, _⟩ => show win0_0.index t (1 : Fin 2) * 128 + 1 * k.val = k.val; omega
  · show V c main_v12 (((cfg0.win 1).blk t).view.emb (ix2 (⟨(j 0).val, hj0⟩ : Fin 5000) (0 : Fin 1))) = _
    refine congrArg (V c main_v12) (funext fun a => Fin.ext ?_)
    match a with
    | ⟨0, _⟩ => show win0_1.index t (0 : Fin 2) * 5000 + 1 * (j 0).val = win0_6.index t (0 : Fin 2) * 5000 + (j 0).val; omega
    | ⟨1, _⟩ => show win0_1.index t (1 : Fin 2) * 1 + 1 * 0 = 0; omega
  · show V c main_arg0 (((cfg0.win 2).blk t).view.emb (ix2 (⟨(j 0).val, hj0⟩ : Fin 5000) k)) = _
    refine congrArg (V c main_arg0) (funext fun a => Fin.ext ?_)
    match a with
    | ⟨0, _⟩ => show win0_2.index t (0 : Fin 2) * 5000 + 1 * (j 0).val = win0_6.index t (0 : Fin 2) * 5000 + (j 0).val; omega
    | ⟨1, _⟩ => show win0_2.index t (1 : Fin 2) * 128 + 1 * k.val = k.val; omega
  · show V c main_arg2 (((cfg0.win 3).blk t).view.emb (ix2 k (⟨(j 1).val, hj1⟩ : Fin 128))) = _
    refine congrArg (V c main_arg2) (funext fun a => Fin.ext ?_)
    match a with
    | ⟨0, _⟩ => show win0_3.index t (0 : Fin 2) * 128 + 1 * k.val = k.val; omega
    | ⟨1, _⟩ => show win0_3.index t (1 : Fin 2) * 128 + 1 * (j 1).val = (j 1).val; omega
  · show V c main_arg3 (((cfg0.win 4).blk t).view.emb (ix2 k (⟨(j 1).val, hj1⟩ : Fin 128))) = _
    refine congrArg (V c main_arg3) (funext fun a => Fin.ext ?_)
    match a with
    | ⟨0, _⟩ => show win0_4.index t (0 : Fin 2) * 128 + 1 * k.val = k.val; omega
    | ⟨1, _⟩ => show win0_4.index t (1 : Fin 2) * 128 + 1 * (j 1).val = (j 1).val; omega
  · show V c main_v23 (((cfg0.win 5).blk t).view.emb (ix2 (0 : Fin 1) (⟨(j 1).val, hj1⟩ : Fin 128))) = _
    refine congrArg (V c main_v23) (funext fun a => Fin.ext ?_)
    match a with
    | ⟨0, _⟩ => show win0_5.index t (0 : Fin 2) * 1 + 1 * 0 = 0; omega
    | ⟨1, _⟩ => show win0_5.index t (1 : Fin 2) * 128 + 1 * (j 1).val = (j 1).val; omega

/-- An index of the result array is in point t's block iff each coordinate is in the block's range. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- Every row is in some point's block: row r is in block r / 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The result array after the call: the first layer of the entry contents. -/
theorem array_eq (c : Dev nD) : (dat0 (F := Ideal) V c).arrAt 6 cfg0.N = hidden V c :=
  (dat0 (F := Ideal) V c).arrAt_eq_of_cover 6 (hidden V c) (fun t _ => flushed_eq V c t) cover

end Cert.KernelIdeal.Hidden

end
-- ==== Proof.Out.lean ====
/-
  The array the second call leaves: the layer (no clamp) of the arrays it is entered with.

  As in the first call the 50000 rows go in ten blocks of 5000; the row-indexed operands are the second neighbour sums,
  the same reciprocal in-degrees and the first layer's result (kept in the narrow format, which on the extended reals is no
  change), the weights are 128 × 64 and the bias a 1 × 64 row.  Row p of block t is row 5000·t + p of the arrays, so what
  point t writes back is block t of `Sage.lin` of the whole arrays, and the ten blocks cover the result.
-/
import proofs.«157254_j24026047053899_2_alg».proof.Proof.Gen.KernelIdeal.Frame
import proofs.«157254_j24026047053899_2_alg».proof.Proof.SageLayer
import proofs.«157254_j24026047053899_2_alg».proof.Proof.BodyEntry
import Idealize.ShloMosaic.Lib.Pipeline.Value

set_option maxRecDepth 16384

noncomputable section

namespace Cert.KernelIdeal.Out

open Cert.KernelIdeal Cert.KernelIdeal.Gen Idealize.ShloMosaic Idealize.ShloMosaic.TcCoe Idealize.SL.Sem
open Idealize.ShloMosaic.ValueIdx Cert.Sage
open Idealize.ShloMosaic.Pipeline (Dat)

-- The contents of the core's buffers when the call is entered: everything below is stated for any such contents.
variable (V : (c : Dev nD) → (b : Ref sig .tc) → Buf (Elt Ideal) ((c : Thread nD τ).loc b))

theorem zeros : (![0, 0] : Fin 2 → Nat) = fun _ => 0 := funext fun a => by fin_cases a <;> rfl

/-- The second layer of the entry contents: sums, reciprocals, the first layer's result, the two weight matrices, the
    bias row. -/
def out (c : Dev nD) : S50000x64.Idx → EReal :=
  lin (n := 50000) (K := 128) (d := 64) (V c main_v35) (V c main_v12) (V c main_v24) (V c main_arg5) (V c main_arg6)
    (rowOf (d := 64) (V c main_v36))

/-- The printed index maps over the ten points: the row-indexed windows move together down the rows, the weights and
    the bias stay at the origin. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every block of rows is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

/-- The body's entry formula at an index given by its coordinates. -/
theorem pay_at (x0 : FVec Ideal S5000x128 .f32) (x1 : FVec Ideal S5000x1 .f32) (x2 : FVec Ideal S5000x128 .bf16)
    (x3 x4 : FVec Ideal S128x64 .f32) (x5 : FVec Ideal S1x64 .f32) (y : S5000x64.Idx) (p : Fin 5000) (q : Fin 64)
    (hy : y = ix2 p q) :
    k1_pay1 (F := Ideal) x0 x1 x2 x3 x4 x5 y
      = entry (fun k : Fin 128 => x0 (ix2 p k)) (x1 (ix2 p (0 : Fin 1))) (fun k : Fin 128 => x2 (ix2 p k))
          (fun k : Fin 128 => x3 (ix2 k q)) (fun k : Fin 128 => x4 (ix2 k q)) (x5 (ix2 (0 : Fin 1) q)) := by
  subst hy; exact BodyEntry.pay1_entry x0 x1 x2 x3 x4 x5 p q

/-- What point t writes back is block t of the second layer. -/
theorem flushed_eq (c : Dev nD) (t : Fin cfg1.N) :
    (dat1 (F := Ideal) V c).flushed 6 t = ((cfg1.win 6).blk t).view.read (Elt Ideal) (out V c) := by
  show (cfg1.win 6).cut (grid1.coords t) ((dat1 (F := Ideal) V c).after 6 t) = _
  rw [after1_6]
  unfold out1_6
  rw [View.canon_unit_zero zeros]
  simp only [View.ld_unit_zero (S := S5000x128) zeros, View.ld_unit_zero (S := S5000x1) zeros,
    View.ld_unit_zero (S := S128x64) zeros, View.ld_unit_zero (S := S1x64) zeros]
  obtain ⟨f00, f01, f10, f11, f20, f21, f30, f31, f40, f41, f50, f51, f60, f61⟩ := idx_facts t
  funext j
  have hj0 : (j 0).val < 5000 := (j 0).isLt
  have hj1 : (j 1).val < 64 := (j 1).isLt
  have hP : win1_6.index t (0 : Fin 2) * 5000 + (j 0).val < 50000 := by omega
  refine (pay_at (iblk1 V c 0 t) (iblk1 V c 1 t) (iblk1 V c 2 t) (iblk1 V c 3 t) (iblk1 V c 4 t) (iblk1 V c 5 t)
    ((cfg1.win 6).xinj (grid1.coords t) j) ⟨(j 0).val, hj0⟩ ⟨(j 1).val, hj1⟩
    (funext fun a => Fin.ext (by match a with | ⟨0, _⟩ => rfl | ⟨1, _⟩ => rfl))).trans ?_
  have hE : ((cfg1.win 6).blk t).view.emb j
      = ix2 (⟨win1_6.index t (0 : Fin 2) * 5000 + (j 0).val, hP⟩ : Fin 50000) (⟨(j 1).val, hj1⟩ : Fin 64) :=
    funext fun a => Fin.ext (by
      match a with
      | ⟨0, _⟩ => show win1_6.index t (0 : Fin 2) * 5000 + 1 * (j 0).val = win1_6.index t (0 : Fin 2) * 5000 + (j 0).val; omega
      | ⟨1, _⟩ => show win1_6.index t (1 : Fin 2) * 64 + 1 * (j 1).val = (j 1).val; omega)
  show _ = out V c (((cfg1.win 6).blk t).view.emb j)
  rw [hE]
  unfold out
  rw [lin_apply, rowOf_apply]
  refine entry_congr (fun k => ?_) ?_ (fun k => ?_) (fun k => ?_) (fun k => ?_) ?_
  · show V c main_v35 (((cfg1.win 0).blk t).view.emb (ix2 (⟨(j 0).val, hj0⟩ : Fin 5000) k)) = _
    refine congrArg (V c main_v35) (funext fun a => Fin.ext ?_)
    match a with
    | ⟨0, _⟩ => show win1_0.index t (0 : Fin 2) * 5000 + 1 * (j 0).val = win1_6.index t (0 : Fin 2) * 5000 + (j 0).val; omega
    | ⟨1, _⟩ => show win1_0.index t (1 : Fin 2) * 128 + 1 * k.val = k.val; omega
  · show V c main_v12 (((cfg1.win 1).blk t).view.emb (ix2 (⟨(j 0).val, hj0⟩ : Fin 5000) (0 : Fin 1))) = _
    refine congrArg (V c main_v12) (funext fun a => Fin.ext ?_)
    match a with
    | ⟨0, _⟩ => show win1_1.index t (0 : Fin 2) * 5000 + 1 * (j 0).val = win1_6.index t (0 : Fin 2) * 5000 + (j 0).val; omega
    | ⟨1, _⟩ => show win1_1.index t (1 : Fin 2) * 1 + 1 * 0 = 0; omega
  · show V c main_v24 (((cfg1.win 2).blk t).view.emb (ix2 (⟨(j 0).val, hj0⟩ : Fin 5000) k)) = _
    refine congrArg (V c main_v24) (funext fun a => Fin.ext ?_)
    match a with
    | ⟨0, _⟩ => show win1_2.index t (0 : Fin 2) * 5000 + 1 * (j 0).val = win1_6.index t (0 : Fin 2) * 5000 + (j 0).val; omega
    | ⟨1, _⟩ => show win1_2.index t (1 : Fin 2) * 128 + 1 * k.val = k.val; omega
  · show V c main_arg5 (((cfg1.win 3).blk t).view.emb (ix2 k (⟨(j 1).val, hj1⟩ : Fin 64))) = _
    refine congrArg (V c main_arg5) (funext fun a => Fin.ext ?_)
    match a with
    | ⟨0, _⟩ => show win1_3.index t (0 : Fin 2) * 128 + 1 * k.val = k.val; omega
    | ⟨1, _⟩ => show win1_3.index t (1 : Fin 2) * 64 + 1 * (j 1).val = (j 1).val; omega
  · show V c main_arg6 (((cfg1.win 4).blk t).view.emb (ix2 k (⟨(j 1).val, hj1⟩ : Fin 64))) = _
    refine congrArg (V c main_arg6) (funext fun a => Fin.ext ?_)
    match a with
    | ⟨0, _⟩ => show win1_4.index t (0 : Fin 2) * 128 + 1 * k.val = k.val; omega
    | ⟨1, _⟩ => show win1_4.index t (1 : Fin 2) * 64 + 1 * (j 1).val = (j 1).val; omega
  · show V c main_v36 (((cfg1.win 5).blk t).view.emb (ix2 (0 : Fin 1) (⟨(j 1).val, hj1⟩ : Fin 64))) = _
    refine congrArg (V c main_v36) (funext fun a => Fin.ext ?_)
    match a with
    | ⟨0, _⟩ => show win1_5.index t (0 : Fin 2) * 1 + 1 * 0 = 0; omega
    | ⟨1, _⟩ => show win1_5.index t (1 : Fin 2) * 64 + 1 * (j 1).val = (j 1).val; omega

/-- An index of the result array is in point t's block iff each coordinate is in the block's range. -/
theorem mem_blk (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v37).slice (win1_6.rect t)).set ↔ _
  rw [View.set_slice_whole, Rect.mem_set_unit]
  exact Iff.rfl

/-- Every row is in some point's block: row r is in block r / 5000. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The result array after the call: the second layer of the entry contents. -/
theorem array_eq (c : Dev nD) : (dat1 (F := Ideal) V c).arrAt 6 cfg1.N = out V c :=
  (dat1 (F := Ideal) V c).arrAt_eq_of_cover 6 (out V c) (fun t _ => flushed_eq V c t) cover

end Cert.KernelIdeal.Out

end
-- ==== Proof.RefLayers.lean ====
/-
  The reference's two layers are the layer's specification.

  The reference computes, for the first layer, the neighbour sums (a scatter-add of gathered rows, left closed here),
  scales them by the reciprocal in-degree laid along the rows, multiplies by the left weights, adds the node features
  times the right weights and the bias laid down the rows, and clamps at 0; the second layer is the same on the first
  layer's result, without the clamp.  Read at an entry (p, q), each stage depends on row p and column q only, and the two
  layers are `Sage.linRelu` and `Sage.lin` of the reference's own sums, reciprocals, features, weights and bias.
-/
import proofs.«157254_j24026047053899_2_alg».proof.Proof.Gen.ReferenceIdeal.Read
import proofs.«157254_j24026047053899_2_alg».proof.Proof.SageLayer
import Idealize.ShloMosaic.PureOps.Ideal.Laws

noncomputable section

namespace Cert.ReferenceIdeal.RefLayers

open Cert.ReferenceIdeal Cert.ReferenceIdeal.Read Idealize.ShloMosaic Idealize.ShloMosaic.ValueIdx Cert.Sage

/-! ### Where each stage reads its operands, in coordinates -/

theorem left25 (p : Fin 50000) (q k : Fin 128) : lidx_main_v25 (ix2 p q) k = ix2 p k :=
  funext fun a => Fin.ext (by match a with | ⟨0, _⟩ => rfl | ⟨1, _⟩ => rfl)
theorem right25 (p : Fin 50000) (q k : Fin 128) : ridx_main_v25 (ix2 p q) k = ix2 k q :=
  funext fun a => Fin.ext (by match a with | ⟨0, _⟩ => rfl | ⟨1, _⟩ => rfl)
theorem left26 (p : Fin 50000) (q k : Fin 128) : lidx_main_v26 (ix2 p q) k = ix2 p k :=
  funext fun a => Fin.ext (by match a with | ⟨0, _⟩ => rfl | ⟨1, _⟩ => rfl)
theorem right26 (p : Fin 50000) (q k : Fin 128) : ridx_main_v26 (ix2 p q) k = ix2 k q :=
  funext fun a => Fin.ext (by match a with | ⟨0, _⟩ => rfl | ⟨1, _⟩ => rfl)
theorem col23 (p : Fin 50000) (k : Fin 128) : idx_main_v23 (ix2 p k) = ix2 p (0 : Fin 1) :=
  funext fun a => Fin.ext (by match a with | ⟨0, _⟩ => rfl | ⟨1, _⟩ => rfl)
theorem bias29 (p : Fin 50000) (q : Fin 128) : idx_main_v28 (idx_main_v29 (ix2 p q)) = ix1 q :=
  funext fun a => Fin.ext (by match a with | ⟨0, _⟩ => rfl)

theorem left44 (p : Fin 50000) (q : Fin 64) (k : Fin 128) : lidx_main_v44 (ix2 p q) k = ix2 p k :=
  funext fun a => Fin.ext (by match a with | ⟨0, _⟩ => rfl | ⟨1, _⟩ => rfl)
theorem right44 (p : Fin 50000) (q : Fin 64) (k : Fin 128) : ridx_main_v44 (ix2 p q) k = ix2 k q :=
  funext fun a => Fin.ext (by match a with | ⟨0, _⟩ => rfl | ⟨1, _⟩ => rfl)
theorem left45 (p : Fin 50000) (q : Fin 64) (k : Fin 128) : lidx_main_v45 (ix2 p q) k = ix2 p k :=
  funext fun a => Fin.ext (by match a with | ⟨0, _⟩ => rfl | ⟨1, _⟩ => rfl)
theorem right45 (p : Fin 50000) (q : Fin 64) (k : Fin 128) : ridx_main_v45 (ix2 p q) k = ix2 k q :=
  funext fun a => Fin.ext (by match a with | ⟨0, _⟩ => rfl | ⟨1, _⟩ => rfl)
theorem col42 (p : Fin 50000) (k : Fin 128) : idx_main_v42 (ix2 p k) = ix2 p (0 : Fin 1) :=
  funext fun a => Fin.ext (by match a with | ⟨0, _⟩ => rfl | ⟨1, _⟩ => rfl)
theorem bias48 (p : Fin 50000) (q : Fin 64) : idx_main_v47 (idx_main_v48 (ix2 p q)) = ix1 q :=
  funext fun a => Fin.ext (by match a with | ⟨0, _⟩ => rfl)

/-! ### The two layers -/

/-- The reference's first layer: the clamped layer of its neighbour sums and reciprocal in-degrees. -/
theorem hidden_eq (x0 : S50000x128.Idx → EReal) (x1 : (⟨S2x800000, .i32⟩ : BufTy).Contents (Elt Ideal))
    (x2 x3 : S128x128.Idx → EReal) (x4 : S128.Idx → EReal) :
    val_main_v31 (F := Ideal) x0 x1 x2 x3 x4
      = linRelu (val_main_v22 (F := Ideal) x0 x1) (val_main_v12 (F := Ideal) x1) x0 x2 x3 x4 := by
  funext i
  obtain ⟨p, q, rfl⟩ : ∃ (p : Fin 50000) (q : Fin 128), i = ix2 p q := ⟨i 0, i 1, eq_ix2 i⟩
  rw [linRelu_apply, val_main_v31_apply, val_main_v30_apply, val_main_v27_apply, val_main_v25_apply, val_main_v26_apply,
    val_main_v29_apply, val_main_v28_apply, val_main_call0_v0_apply, val_main_call0_cst_apply]
  unfold entry
  refine congrArg₂ max (congrArg₂ (· + ·) (congrArg₂ (· + ·) (Finset.sum_congr rfl fun k _ => ?_)
    (Finset.sum_congr rfl fun k _ => ?_)) ?_) Ideal.ofBits_zero_f32
  · rw [left25, right25, val_main_v24_apply, val_main_v23_apply, col23]; rfl
  · rw [left26, right26]
  · rw [bias29]

/-- The reference's second layer: the layer of its second neighbour sums, the same reciprocals, and the first layer. -/
theorem out_eq (x0 : S50000x128.Idx → EReal) (x1 : (⟨S2x800000, .i32⟩ : BufTy).Contents (Elt Ideal))
    (x2 x3 : S128x128.Idx → EReal) (x4 : S128.Idx → EReal) (x5 x6 : S128x64.Idx → EReal) (x7 : S64.Idx → EReal) :
    val_main_v49 (F := Ideal) x0 x1 x2 x3 x4 x5 x6 x7
      = lin (val_main_v41 (F := Ideal) x0 x1 x2 x3 x4) (val_main_v12 (F := Ideal) x1)
          (val_main_v31 (F := Ideal) x0 x1 x2 x3 x4) x5 x6 x7 := by
  funext i
  obtain ⟨p, q, rfl⟩ : ∃ (p : Fin 50000) (q : Fin 64), i = ix2 p q := ⟨i 0, i 1, eq_ix2 i⟩
  rw [lin_apply, val_main_v49_apply, val_main_v46_apply, val_main_v44_apply, val_main_v45_apply,
    val_main_v48_apply, val_main_v47_apply]
  unfold entry
  refine congrArg₂ (· + ·) (congrArg₂ (· + ·) (Finset.sum_congr rfl fun k _ => ?_)
    (Finset.sum_congr rfl fun k _ => ?_)) ?_
  · rw [left44, right44, val_main_v43_apply, val_main_v42_apply, col42]; rfl
  · rw [left45, right45]
  · rw [bias48]

end Cert.ReferenceIdeal.RefLayers

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.KernelValue.lean ====
/-
  The kernel's result array as a function of its arguments, and that it is the reference's.

  Walking back from the last boundary: the result buffer is what the second call leaves, the second layer of that call's
  entry contents.  Of those, the second neighbour sums are the host's scatter-add of rows gathered from the first call's
  result (the widening in between is no change on the extended reals); the reciprocal in-degrees, the edge lists and the
  weights are untouched since launch or since the first stretch of host operations; the first call's result is the
  clamped first layer of ITS entry contents, which the first stretch computed from the arguments exactly as the reference
  does.  The bias reaches each call as a one-row matrix, whose row is the bias vector.  So the result is the reference's
  second layer of the reference's own terms: the two programs apply the same operations to the same arrays, and the two
  layers agree by the entry formulas.
-/
import proofs.«157254_j24026047053899_2_alg».proof.Proof.Gen.KernelIdeal.Frame
import proofs.«157254_j24026047053899_2_alg».proof.Proof.Gen.ReferenceIdeal.Read
import proofs.«157254_j24026047053899_2_alg».proof.Proof.Hidden
import proofs.«157254_j24026047053899_2_alg».proof.Proof.Out
import proofs.«157254_j24026047053899_2_alg».proof.Proof.RefLayers
import proofs.«157254_j24026047053899_2_alg».proof.Proof.LibRowVector
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg)

/-! ### The arguments as launched -/

abbrev a0 (c : Dev nD) : S50000x128.Idx → EReal := m ((c : Thread nD τ).loc main_arg0)
abbrev a1 (c : Dev nD) : (⟨S2x800000, .i32⟩ : BufTy).Contents (Elt Ideal) := m ((c : Thread nD τ).loc main_arg1)
abbrev a2 (c : Dev nD) : S128x128.Idx → EReal := m ((c : Thread nD τ).loc main_arg2)
abbrev a3 (c : Dev nD) : S128x128.Idx → EReal := m ((c : Thread nD τ).loc main_arg3)
abbrev a4 (c : Dev nD) : S128.Idx → EReal := m ((c : Thread nD τ).loc main_arg4)
abbrev a5 (c : Dev nD) : S128x64.Idx → EReal := m ((c : Thread nD τ).loc main_arg5)
abbrev a6 (c : Dev nD) : S128x64.Idx → EReal := m ((c : Thread nD τ).loc main_arg6)
abbrev a7 (c : Dev nD) : S64.Idx → EReal := m ((c : Thread nD τ).loc main_arg7)

/-- The row of a vector handed over as a one-row matrix is the vector. -/
theorem rowOf_reshape {d : ℕ} (v : (⟨1, ![d]⟩ : Shape).Idx → EReal) (h : (⟨1, ![d]⟩ : Shape).ShapeCasts ⟨2, ![1, d]⟩) :
    rowOf (shapeCast (⟨2, ![1, d]⟩ : Shape) v h) = v :=
  funext fun j => (Cert.RowVector.shapeCast_b_1b_apply v h (0 : Fin 1) (j 0)).trans (congrArg v (eq_ix1 j).symm)

/-! ### What the first call is entered with -/

theorem sums1 (c : Dev nD) :
    (V1 m ρ c main_v22 : S50000x128.Idx → EReal) = Cert.ReferenceIdeal.Read.val_main_v22 (F := Ideal) (a0 m c) (a1 m c) := by
  show StableHlo.after hostOps0 (W0 m ρ c) (Proc.devRef .tc main_v22) = _
  after_results_simp <;> rfl

theorem recip1 (c : Dev nD) :
    (V1 m ρ c main_v12 : S50000x1.Idx → EReal) = Cert.ReferenceIdeal.Read.val_main_v12 (F := Ideal) (a1 m c) := by
  show StableHlo.after hostOps0 (W0 m ρ c) (Proc.devRef .tc main_v12) = _
  after_results_simp <;> rfl

theorem src1 (c : Dev nD) :
    W1 m ρ c (Proc.devRef .tc main_v1) = Cert.ReferenceIdeal.Read.val_main_v1 (F := Ideal) (a1 m c) := by
  show StableHlo.after hostOps0 (W0 m ρ c) (Proc.devRef .tc main_v1) = _
  after_results_simp <;> rfl

theorem dst1 (c : Dev nD) :
    W1 m ρ c (Proc.devRef .tc main_v3) = Cert.ReferenceIdeal.Read.val_main_v3 (F := Ideal) (a1 m c) := by
  show StableHlo.after hostOps0 (W0 m ρ c) (Proc.devRef .tc main_v3) = _
  after_results_simp <;> rfl

theorem feat1 (c : Dev nD) : (V1 m ρ c main_arg0 : S50000x128.Idx → EReal) = a0 m c := by
  show StableHlo.after hostOps0 (W0 m ρ c) (Proc.devRef .tc main_arg0) = _
  after_results_simp <;> rfl

theorem wl1 (c : Dev nD) : (V1 m ρ c main_arg2 : S128x128.Idx → EReal) = a2 m c := by
  show StableHlo.after hostOps0 (W0 m ρ c) (Proc.devRef .tc main_arg2) = _
  after_results_simp <;> rfl

theorem wr1 (c : Dev nD) : (V1 m ρ c main_arg3 : S128x128.Idx → EReal) = a3 m c := by
  show StableHlo.after hostOps0 (W0 m ρ c) (Proc.devRef .tc main_arg3) = _
  after_results_simp <;> rfl

theorem bias1 (c : Dev nD) :
    (V1 m ρ c main_v23 : S1x128.Idx → EReal) = shapeCast S1x128 (a4 m c) shapeCasts_S128_S1x128 := by
  show StableHlo.after hostOps0 (W0 m ρ c) (Proc.devRef .tc main_v23) = _
  after_results_simp <;> rfl

theorem wl2_launch (c : Dev nD) : W1 m ρ c (Proc.devRef .tc main_arg5) = a5 m c := by
  show StableHlo.after hostOps0 (W0 m ρ c) (Proc.devRef .tc main_arg5) = _
  after_results_simp <;> rfl

theorem wr2_launch (c : Dev nD) : W1 m ρ c (Proc.devRef .tc main_arg6) = a6 m c := by
  show StableHlo.after hostOps0 (W0 m ρ c) (Proc.devRef .tc main_arg6) = _
  after_results_simp <;> rfl

theorem bias_launch (c : Dev nD) : W1 m ρ c (Proc.devRef .tc main_arg7) = a7 m c := by
  show StableHlo.after hostOps0 (W0 m ρ c) (Proc.devRef .tc main_arg7) = _
  after_results_simp <;> rfl

/-- The first call's result is the reference's first layer of the arguments. -/
theorem hidden_value (c : Dev nD) :
    Hidden.hidden (V1 m ρ) c = Cert.ReferenceIdeal.Read.val_main_v31 (F := Ideal) (a0 m c) (a1 m c) (a2 m c) (a3 m c) (a4 m c) := by
  unfold Hidden.hidden
  rw [sums1, recip1, feat1, wl1, wr1, bias1, rowOf_reshape, Cert.ReferenceIdeal.RefLayers.hidden_eq]

/-! ### What the second call is entered with -/

theorem first_result (c : Dev nD) :
    (W2 m ρ c (Proc.devRef .tc main_v24) : S50000x128.Idx → EReal)
      = Cert.ReferenceIdeal.Read.val_main_v31 (F := Ideal) (a0 m c) (a1 m c) (a2 m c) (a3 m c) (a4 m c) :=
  ((W2_arr m ρ c 6).trans (Hidden.array_eq (V1 m ρ) c)).trans (hidden_value m ρ c)

theorem sums2 (c : Dev nD) :
    (V3 m ρ c main_v35 : S50000x128.Idx → EReal)
      = Cert.ReferenceIdeal.Read.val_main_v41 (F := Ideal) (a0 m c) (a1 m c) (a2 m c) (a3 m c) (a4 m c) := by
  show StableHlo.after hostOps1 (W2 m ρ c) (Proc.devRef .tc main_v35) = _
  after_results
  rw [first_result, W2_of_ne m ρ c main_v1 (by decide), W2_of_ne m ρ c main_v3 (by decide), src1, dst1]
  rfl

theorem recip2 (c : Dev nD) :
    (V3 m ρ c main_v12 : S50000x1.Idx → EReal) = Cert.ReferenceIdeal.Read.val_main_v12 (F := Ideal) (a1 m c) := by
  show StableHlo.after hostOps1 (W2 m ρ c) (Proc.devRef .tc main_v12) = _
  after_results
  exact ((W2_arr m ρ c 1).trans (((dat0 (V1 m ρ) c).arrAt_in 1 rfl _).trans (A_eq0 (V1 m ρ) c 1))).trans (recip1 m ρ c)

theorem hidden2 (c : Dev nD) :
    (V3 m ρ c main_v24 : S50000x128.Idx → EReal)
      = Cert.ReferenceIdeal.Read.val_main_v31 (F := Ideal) (a0 m c) (a1 m c) (a2 m c) (a3 m c) (a4 m c) := by
  show StableHlo.after hostOps1 (W2 m ρ c) (Proc.devRef .tc main_v24) = _
  after_results
  exact first_result m ρ c

theorem wl2 (c : Dev nD) : (V3 m ρ c main_arg5 : S128x64.Idx → EReal) = a5 m c := by
  show StableHlo.after hostOps1 (W2 m ρ c) (Proc.devRef .tc main_arg5) = _
  after_results
  rw [W2_of_ne m ρ c main_arg5 (by decide)]
  exact wl2_launch m ρ c

theorem wr2 (c : Dev nD) : (V3 m ρ c main_arg6 : S128x64.Idx → EReal) = a6 m c := by
  show StableHlo.after hostOps1 (W2 m ρ c) (Proc.devRef .tc main_arg6) = _
  after_results
  rw [W2_of_ne m ρ c main_arg6 (by decide)]
  exact wr2_launch m ρ c

theorem bias2 (c : Dev nD) :
    (V3 m ρ c main_v36 : S1x64.Idx → EReal) = shapeCast S1x64 (a7 m c) shapeCasts_S64_S1x64 := by
  show StableHlo.after hostOps1 (W2 m ρ c) (Proc.devRef .tc main_v36) = _
  after_results
  rw [W2_of_ne m ρ c main_arg7 (by decide), bias_launch]
  rfl

/-! ### The result -/

/-- The result buffer at the last boundary is the reference's result term of the launch arguments. -/
theorem result_value (c : Dev nD) :
    (W4 m ρ c (Proc.devRef .tc main_v37) : S50000x64.Idx → EReal)
      = Cert.ReferenceIdeal.Read.val_main_v49 (F := Ideal) (a0 m c) (a1 m c) (a2 m c) (a3 m c) (a4 m c) (a5 m c) (a6 m c) (a7 m c) := by
  refine ((W4_arr m ρ c 6).trans (Out.array_eq (V3 m ρ) c)).trans ?_
  unfold Out.out
  rw [sums2, recip2, hidden2, wl2, wr2, bias2, rowOf_reshape, Cert.ReferenceIdeal.RefLayers.out_eq]

end Cert.KernelIdeal.Result

end
-- ==== Proof.lean ====
/-
  A two-layer mean-aggregating graph convolution (50000 nodes, 800000 edges, features 128 → 128 → 64): the kernel
  program against the plain reference, on the extended reals.

  Both programs build the neighbour sums of a node array by a gather along the edge sources and a scatter-add along the
  edge targets, and the reciprocal in-degree 1 / max(deg, 1) from a scatter-add of ones.  A layer is
      (sums · reciprocal) · Wl + features · Wr + bias,
  the first layer clamped below at 0, the second taken of the first layer's result.  The reference applies a layer to the
  whole arrays with two matrix products; the kernel program runs each layer as a call over ten blocks of 5000 rows, the
  reciprocal applied inside the call, the bias handed over as a one-row matrix, the first layer's result kept in a
  narrower float format (no change on the extended reals).

  An entry (p, q) of a layer depends on row p of the sums, the reciprocals and the features, on column q of the weights
  and on entry q of the bias (`Sage.entry`); both programs compute it with the same operations in the same order, so no
  law of the extended reals beyond rewriting a product of matrices entry by entry is used, and the precondition is not
  opened.  The host operations that build the sums and the reciprocals are the same on the two sides and are compared
  as closed terms.

  The three frames: the two kernel programs' by their generated frame proofs, the reference's by its generated run with
  the result dropped.  The idealization rewrote nothing, so `preserves` is trivial.  For `algebraic` both runs are posted
  at one term, the reference's result term of the kernel's launch arguments.
-/
import proofs.«157254_j24026047053899_2_alg».proof.Defs
import proofs.«157254_j24026047053899_2_alg».proof.Proof.Gen.Kernel
import proofs.«157254_j24026047053899_2_alg».proof.Proof.Gen.Kernel.Skeleton
import proofs.«157254_j24026047053899_2_alg».proof.Proof.Gen.Kernel.Launch
import proofs.«157254_j24026047053899_2_alg».proof.Proof.Gen.Kernel.Points
import proofs.«157254_j24026047053899_2_alg».proof.Proof.Gen.Kernel.Frame
import proofs.«157254_j24026047053899_2_alg».proof.Proof.Gen.KernelIdeal
import proofs.«157254_j24026047053899_2_alg».proof.Proof.Gen.KernelIdeal.Skeleton
import proofs.«157254_j24026047053899_2_alg».proof.Proof.Gen.KernelIdeal.Launch
import proofs.«157254_j24026047053899_2_alg».proof.Proof.Gen.KernelIdeal.Points
import proofs.«157254_j24026047053899_2_alg».proof.Proof.Gen.KernelIdeal.Frame
import proofs.«157254_j24026047053899_2_alg».proof.Proof.Gen.ReferenceIdeal
import proofs.«157254_j24026047053899_2_alg».proof.Proof.Gen.ReferenceIdeal.Run
import proofs.«157254_j24026047053899_2_alg».proof.Proof.Gen.ReferenceIdeal.Read
import proofs.«157254_j24026047053899_2_alg».proof.Proof.Gen.Pre_finite_inputs
import proofs.«157254_j24026047053899_2_alg».proof.Proof.KernelRun
import proofs.«157254_j24026047053899_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's result term of those arguments:
    the kernel's result buffer by its run and the walk back through its two calls, the reference's by its run. -/
theorem algebraic : Cert.algebraic_KernelIdeal_ReferenceIdeal := by
  intro m ρ m' ρ' _ hagree
  refine ⟨fun c => Cert.ReferenceIdeal.Read.val_main_v49 (F := Ideal)
      (Cert.KernelIdeal.Result.a0 m c) (Cert.KernelIdeal.Result.a1 m c) (Cert.KernelIdeal.Result.a2 m c)
      (Cert.KernelIdeal.Result.a3 m c) (Cert.KernelIdeal.Result.a4 m c) (Cert.KernelIdeal.Result.a5 m c)
      (Cert.KernelIdeal.Result.a6 m c) (Cert.KernelIdeal.Result.a7 m c), ?_, ?_⟩
  · exact (θ_run Cert.KernelIdeal.defs _ _).mono
      (fun _ h c => ⟨(h c).1.trans (Cert.KernelIdeal.Result.result_value m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v49_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
